-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S8x1024x384 : Shape := ⟨3, ![8, 1024, 384]⟩
abbrev S8x128x1024 : Shape := ⟨3, ![8, 128, 1024]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S8x1024x384 : S_.BroadcastsInDim S8x1024x384 (![] : Fin 0 → Fin S8x1024x384.rank)
  reducesTo_S8x1024x384_S_d0_1_2 : S8x1024x384.ReducesTo [0, 1, 2] S_
  bcast_S_S8x128x1024 : S_.BroadcastsInDim S8x128x1024 (![] : Fin 0 → Fin S8x128x1024.rank)
  reducesTo_S8x128x1024_S_d0_1_2 : S8x128x1024.ReducesTo [0, 1, 2] S_

variable [Facts]

def fn {F : FTy → Type} [FloatOps F] (main_arg0 : FVec F S16x512x1024 .f32) (main_arg1 : FVec F S8x1024x384 .f32) (main_arg2 : FVec F S8x128x1024 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S8x1024x384 .f32 := Host.absf main_arg1
  let main_cst_0 : FVec F S_ .f32 := constant S_ .f32 0x7F800000#32
  let main_v5 : FVec F S8x1024x384 .f32 := broadcastInDim S8x1024x384 ![] bcast_S_S8x1024x384 main_cst_0
  let main_v6 : IVec S8x1024x384 1 := cmpf .olt main_v4 main_v5
  let main_c_1 : IVec S_ 1 := constantI S_ 1 1#1
  let main_v7 : IVec S_ 1 := (fun x v => Host.reduce IntOp.andi x v reducesTo_S8x1024x384_S_d0_1_2 h_S_) main_v6 main_c_1
  let main_v8 : IVec S_ 1 := andi main_v3 main_v7
  let main_v9 : FVec F S8x128x1024 .f32 := Host.absf main_arg2
  let main_cst_2 : FVec F S_ .f32 := constant S_ .f32 0x7F800000#32
  let main_v10 : FVec F S8x128x1024 .f32 := broadcastInDim S8x128x1024 ![] bcast_S_S8x128x1024 main_cst_2
  let main_v11 : IVec S8x128x1024 1 := cmpf .olt main_v9 main_v10
  let main_c_3 : IVec S_ 1 := constantI S_ 1 1#1
  let main_v12 : IVec S_ 1 := (fun x v => Host.reduce IntOp.andi x v reducesTo_S8x128x1024_S_d0_1_2 h_S_) main_v11 main_c_3
  let main_v13 : IVec S_ 1 := andi main_v8 main_v12
  main_v13
-- ==== Kernel.lean ====
abbrev S16x512x1024 : Shape := ⟨3, ![16, 512, 1024]⟩
abbrev S8x1024x384 : Shape := ⟨3, ![8, 1024, 384]⟩
abbrev S8x128x1024 : Shape := ⟨3, ![8, 128, 1024]⟩
abbrev S1024x1024 : Shape := ⟨2, ![1024, 1024]⟩
abbrev S1x512x1024 : Shape := ⟨3, ![1, 512, 1024]⟩
abbrev S1x1024x384 : Shape := ⟨3, ![1, 1024, 384]⟩
abbrev S1024x128 : Shape := ⟨2, ![1024, 128]⟩
abbrev S1x512x128 : Shape := ⟨3, ![1, 512, 128]⟩
abbrev S512x1024 : Shape := ⟨2, ![512, 1024]⟩
abbrev S1024x384 : Shape := ⟨2, ![1024, 384]⟩
abbrev S512x384 : Shape := ⟨2, ![512, 384]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128 : Shape := ⟨1, ![128]⟩
abbrev S128x4x128 : Shape := ⟨3, ![128, 4, 128]⟩
abbrev S4x128x128 : Shape := ⟨3, ![4, 128, 128]⟩
abbrev S1x128 : Shape := ⟨2, ![1, 128]⟩

abbrev nBuf : Space → Nat
  | .hbm => 7
  | .vmem => 8
  | .smem => 0
  | _ => 0

abbrev bufTy : (tb : Table) → Fin (tcTables nBuf tb) → BufTy
  | .hbm, ⟨0, _⟩ => ⟨S16x512x1024, .f32⟩
  | .hbm, ⟨1, _⟩ => ⟨S8x1024x384, .f32⟩
  | .hbm, ⟨2, _⟩ => ⟨S8x128x1024, .f32⟩
  | .hbm, ⟨3, _⟩ => ⟨S16x512x1024, .bf16⟩
  | .hbm, ⟨4, _⟩ => ⟨S8x1024x384, .bf16⟩
  | .hbm, ⟨5, _⟩ => ⟨S1024x1024, .f32⟩
  | .hbm, ⟨6, _⟩ => ⟨S16x512x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x384, .bf16⟩
  | .local _ .vmem, ⟨3, _⟩ => ⟨S1x1024x384, .bf16⟩
  | .local _ .vmem, ⟨4, _⟩ => ⟨S1024x128, .f32⟩
  | .local _ .vmem, ⟨5, _⟩ => ⟨S1024x128, .f32⟩
  | .local _ .vmem, ⟨6, _⟩ => ⟨S1x512x128, .f32⟩
  | .local _ .vmem, ⟨7, _⟩ => ⟨S1x512x128, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S8x128x1024_S1024x1024 : S8x128x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  slices_S512x384_o0_0_S512x128 : S512x384.Slices ![0, 0] S512x128
  slices_S512x384_o0_128_S512x128 : S512x384.Slices ![0, 128] S512x128
  slices_S512x384_o0_256_S512x128 : S512x384.Slices ![0, 256] S512x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S128 : S1024x128.Reduces [0] S128
  shapeCasts_S512x128_S128x4x128 : S512x128.ShapeCasts S128x4x128
  transposes_S128x4x128_p1_2_0_S4x128x128 : S128x4x128.Transposes [1, 2, 0] S4x128x128
  shapeCasts_S4x128x128_S512x128 : S4x128x128.ShapeCasts S512x128
  shapeCasts_S128_S1x128 : S128.ShapeCasts S1x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x1024_S1024x384_S512x384_1_0_0_1_n_n_wf : DotDims.WF S512x1024 S1024x384 S512x384 [1] [0] [0] [1] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .bf16 = 32 ∨ (Rect.block (s := S16x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x384.size a ≤ S8x1024x384.size a
  hwx0_1 : ∀ i : grid0.Coords, EltTy.bits .bf16 = 32 ∨ (Rect.block (s := S8x1024x384) S1x1024x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x1024.size a
  hwx0_2 : ∀ i : grid0.Coords, EltTy.bits .f32 = 32 ∨ (Rect.block (s := S1024x1024) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x512x1024.size a
  hwx0_3 : ∀ i : grid0.Coords, EltTy.bits .f32 = 32 ∨ (Rect.block (s := S16x512x1024) S1x512x128.size (cc0_transform_3 i) (hinb0_3 i)).WholeWords (EltTy.packing .f32)

variable [Facts₀]

def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S8x1024x384 : Shape := ⟨3, ![8, 1024, 384]⟩
abbrev S8x128x1024 : Shape := ⟨3, ![8, 128, 1024]⟩
abbrev S8x1024x128 : Shape := ⟨3, ![8, 1024, 128]⟩
abbrev S16x8x512x128 : Shape := ⟨4, ![16, 8, 512, 128]⟩
abbrev S1x512x1024 : Shape := ⟨3, ![1, 512, 1024]⟩
abbrev S1x1024x128 : Shape := ⟨3, ![1, 1024, 128]⟩
abbrev S1x1x512x128 : Shape := ⟨4, ![1, 1, 512, 128]⟩
abbrev S512x1024 : Shape := ⟨2, ![512, 1024]⟩
abbrev S1024x128 : Shape := ⟨2, ![1024, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S16x1024x512 : Shape := ⟨3, ![16, 1024, 512]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 11
  | .vmem => 15
  | .smem => 0
  | _ => 0

abbrev bufTy : (tb : Table) → Fin (tcTables nBuf tb) → BufTy
  | .hbm, ⟨0, _⟩ => ⟨S16x512x1024, .f32⟩
  | .hbm, ⟨1, _⟩ => ⟨S8x1024x384, .f32⟩
  | .hbm, ⟨2, _⟩ => ⟨S8x128x1024, .f32⟩
  | .hbm, ⟨3, _⟩ => ⟨S8x1024x128, .f32⟩
  | .hbm, ⟨4, _⟩ => ⟨S8x1024x128, .f32⟩
  | .hbm, ⟨5, _⟩ => ⟨S8x1024x128, .f32⟩
  | .hbm, ⟨6, _⟩ => ⟨S16x8x512x128, .f32⟩
  | .hbm, ⟨7, _⟩ => ⟨S16x1024x512, .f32⟩
  | .hbm, ⟨8, _⟩ => ⟨S16x512x1024, .f32⟩
  | .hbm, ⟨9, _⟩ => ⟨S1024x1024, .f32⟩
  | .hbm, ⟨10, _⟩ => ⟨S16x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x512x1024, .f32⟩
  | .local _ .vmem, ⟨11, _⟩ => ⟨S1x512x1024, .f32⟩
  | .local _ .vmem, ⟨12, _⟩ => ⟨S1024x1024, .f32⟩
  | .local _ .vmem, ⟨13, _⟩ => ⟨S1x512x1024, .f32⟩
  | .local _ .vmem, ⟨14, _⟩ => ⟨S1x512x1024, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S8x1024x384_S8x1024x128_0_0_0 : S8x1024x384.Slices ![0, 0, 0] S8x1024x128
  slices_S8x1024x384_S8x1024x128_0_0_128 : S8x1024x384.Slices ![0, 0, 128] S8x1024x128
  slices_S8x1024x384_S8x1024x128_0_0_256 : S8x1024x384.Slices ![0, 0, 256] S8x1024x128
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  shapeCasts_S512x128_S1x1x512x128 : S512x128.ShapeCasts S1x1x512x128
  shapeCasts_S16x8x512x128_S16x1024x512 : S16x8x512x128.ShapeCasts S16x1024x512
  transposes_S16x1024x512_S16x512x1024_0_2_1 : S16x1024x512.Transposes [0, 2, 1] S16x512x1024
  shapeCasts_S8x128x1024_S1024x1024 : S8x128x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [0] S1024
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x128_S512x128_1_0_0_1_n_n_wf : DotDims.WF S512x1024 S1024x128 S512x128 [1] [0] [0] [1] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x512x1024.size a
  hwx0_0 : ∀ i : grid0.Coords, EltTy.bits .f32 = 32 ∨ (Rect.block (s := S16x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x1024x128.size a
  hwx0_1 : ∀ i : grid0.Coords, EltTy.bits .f32 = 32 ∨ (Rect.block (s := S8x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x1024x128.size a
  hwx0_2 : ∀ i : grid0.Coords, EltTy.bits .f32 = 32 ∨ (Rect.block (s := S8x1024x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x1024x128.size a
  hwx0_3 : ∀ i : grid0.Coords, EltTy.bits .f32 = 32 ∨ (Rect.block (s := S8x1024x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x128.size a ≤ S16x8x512x128.size a
  hwx0_4 : ∀ i : grid0.Coords, EltTy.bits .f32 = 32 ∨ (Rect.block (s := S16x8x512x128) S1x1x512x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x512x1024.size a
  hwx1_0 : ∀ i : grid1.Coords, EltTy.bits .f32 = 32 ∨ (Rect.block (s := S16x512x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S16x512x1024.size a
  hwx1_2 : ∀ i : grid1.Coords, EltTy.bits .f32 = 32 ∨ (Rect.block (s := S16x512x1024) S1x512x1024.size (cc1_transform_2 i) (hinb1_2 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KerHost.lean ====
/-
  The fused kernel's host operations, read: before the region the activations and the fused projection weight change
  float format (the identity at exact arithmetic, kept as the operation it is), and the output weight [8,128,1024] is
  re-read as [1024,1024].
-/
import proofs.«157704_g2000707044854804_pallasbulk_1172_2_alg».proof.Proof.Gen.KernelIdeal.Frame
import Idealize.ShloMosaic.Lib.StableHlo.Run

set_option maxRecDepth 16384

noncomputable section

namespace Cert.KernelIdeal.KerHost

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The region finds the activations after their change of format, -/
theorem entry_v0 (c : Dev nD) :
    (V m c main_v0 : S16x512x1024.Idx → Elt F .bf16)
      = truncf .bf16 (m ((c : Thread nD τ).loc main_arg0) : S16x512x1024.Idx → Elt F .f32) bitsLt_bf16_f32 := by
  dsimp only [V, hostOps0]; after_results <;> rfl

/-- the fused weight after its change of format, -/
theorem entry_v1 (c : Dev nD) :
    (V m c main_v1 : S8x1024x384.Idx → Elt F .bf16)
      = truncf .bf16 (m ((c : Thread nD τ).loc main_arg1) : S8x1024x384.Idx → Elt F .f32) bitsLt_bf16_f32 := by
  dsimp only [V, hostOps0]; after_results <;> rfl

/-- and the output weight re-read as [1024,1024]. -/
theorem entry_v2 (c : Dev nD) :
    (V m c main_v2 : S1024x1024.Idx → Elt F .f32)
      = shapeCast S1024x1024 (m ((c : Thread nD τ).loc main_arg2) : S8x128x1024.Idx → Elt F .f32) shapeCasts_S8x128x1024_S1024x1024 := by
  dsimp only [V, hostOps0]; after_results <;> rfl

end Cert.KernelIdeal.KerHost

end
-- ==== Proof.KerSpec.lean ====
/-
  What the idealized fused kernel leaves in its output array, as a whole-array function.

  The region runs over the grid (batch b, head n): its body is given batch member b of the activations, head n of the
  fused projection weight and the 128-column band n of the flattened output weight, and stores one [512,128] tile into
  columns 128 n … 128 n + 127 of batch member b of the output.  The output array [16,512,1024] therefore holds, at
  (b, s, d), the body's value of those three blocks — for the head n = d / 128 — at (s, d mod 128).
-/
import proofs.«157704_g2000707044854804_pallasbulk_1172_2_alg».proof.Proof.Gen.KernelIdeal.Frame
import Idealize.ShloMosaic.Lib.ValueIdx

noncomputable section

namespace Cert.KernelIdeal.KerValue

open Idealize.ShloMosaic Idealize.ShloMosaic.ValueIdx Cert.KernelIdeal Cert.KernelIdeal.Gen

/-- Batch member `b` of a [16,512,1024] array, as the one-member block [1,512,1024]. -/
def rowsOf (X : Vec Ideal S16x512x1024 .bf16) (b : Fin 16) : Vec Ideal S1x512x1024 .bf16 :=
  fun y => X (ix3 b (y 1) (y 2))

/-- Head `n` of the fused [8,1024,384] weight, as the one-member block [1,1024,384]. -/
def headOf (W : Vec Ideal S8x1024x384 .bf16) (n : Fin 8) : Vec Ideal S1x1024x384 .bf16 :=
  fun y => W (ix3 n (y 1) (y 2))

/-- Column band `n` (columns 128 n … 128 n + 127) of the flattened [1024,1024] output weight. -/
def bandOf (Wf : Vec Ideal S1024x1024 .f32) (n : Fin 8) : Vec Ideal S1024x128 .f32 :=
  fun y => Wf (ix2 (y 0) (⟨n.val * 128 + (y 1).val, by have := n.isLt; have h : (y 1).val < 128 := (y 1).isLt; omega⟩ : Fin 1024))

/-- The head a column of the output belongs to. -/
def headAt (i : S16x512x1024.Idx) : Fin 8 := ⟨(i 2).val / 128, by have h : (i 2).val < 1024 := (i 2).isLt; omega⟩

/-- The column's position inside its head's band. -/
def laneAt (i : S16x512x1024.Idx) : Fin 128 := ⟨(i 2).val % 128, Nat.mod_lt _ (by decide)⟩

/-- The region's output array: at (b, s, d) the body's value, of batch member b, head d / 128 of the fused weight and
    band d / 128 of the output weight, at (s, d mod 128). -/
def fusedArr (X : Vec Ideal S16x512x1024 .bf16) (W : Vec Ideal S8x1024x384 .bf16) (Wf : Vec Ideal S1024x1024 .f32) :
    Vec Ideal S16x512x1024 .f32 :=
  fun i => k0_pay2 (F := Ideal) (rowsOf X (i 0)) (headOf W (headAt i)) (bandOf Wf (headAt i)) (ix2 (i 1) (laneAt i))

end Cert.KernelIdeal.KerValue

end
-- ==== Proof.KerFinal.lean ====
/-
  The fused kernel's output array, after its one region has run over its grid, is the whole-array function `fusedArr`
  of the three arrays the region reads.

  At the point (b, n) the body is given batch member b of the activations, head n of the fused projection weight and the
  128-column band n of the flattened output weight, and stores the tile [1,512,128] at (b, 0, n): columns
  128 n … 128 n + 127 of batch member b.  So what the point writes back is the array function read through the point's
  tile (`fused_flushed`); the 16 × 8 tiles cover the array, index (b, s, d) lying in the tile of (b, d / 128)
  (`fused_cover`); hence the array ends holding the function (`fused_final`).
-/
import proofs.«157704_g2000707044854804_pallasbulk_1172_2_alg».proof.Proof.KerSpec
import proofs.«157704_g2000707044854804_pallasbulk_1172_2_alg».proof.Proof.Gen.KernelIdeal.Value
import Idealize.ShloMosaic.Lib.Pipeline.Value

noncomputable section

namespace Cert.KernelIdeal.KerValue

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The zero offset of a rank-3 access. -/
theorem fused_zero3 : (![0, 0, 0] : Fin 3 → Nat) = fun _ => 0 := funext fun a => by fin_cases a <;> rfl
/-- The zero offset of a rank-2 access. -/
theorem fused_zero2 : (![0, 0] : Fin 2 → Nat) = fun _ => 0 := funext fun a => by fin_cases a <;> rfl

/-- The block indices over the grid: the activations move with the output's batch axis; the fused weight's head index
    and the output weight's column-band index are the output's column-band index; every other block index is 0; the
    output's batch and band indices stay in range. -/
theorem fused_idx : ∀ t : Fin cfg0.N, win0_0.index t (0 : Fin 3) = win0_3.index t (0 : Fin 3)
    ∧ win0_0.index t (1 : Fin 3) = 0 ∧ win0_0.index t (2 : Fin 3) = 0
    ∧ win0_1.index t (0 : Fin 3) = win0_3.index t (2 : Fin 3)
    ∧ win0_1.index t (1 : Fin 3) = 0 ∧ win0_1.index t (2 : Fin 3) = 0
    ∧ win0_2.index t (0 : Fin 2) = 0 ∧ win0_2.index t (1 : Fin 2) = win0_3.index t (2 : Fin 3)
    ∧ win0_3.index t (0 : Fin 3) < 16 ∧ win0_3.index t (1 : Fin 3) = 0 ∧ win0_3.index t (2 : Fin 3) < 8 :=
  (by decide +kernel : ∀ t : Fin grid0.N, _)

/-- The stored tile at a tile position is the array function at the index the position lands on, once the three loaded
    blocks are known to be the index's own batch member, head and column band. -/
theorem fused_point (x0 : Vec Ideal S1x512x1024 .bf16) (x1 : Vec Ideal S1x1024x384 .bf16) (x2 : Vec Ideal S1024x128 .f32)
    (X : Vec Ideal S16x512x1024 .bf16) (W : Vec Ideal S8x1024x384 .bf16) (Wf : Vec Ideal S1024x1024 .f32)
    (y : S1x512x128.Idx) (i : S16x512x1024.Idx)
    (h0 : x0 = rowsOf X (i 0)) (h1 : x1 = headOf W (headAt i)) (h2 : x2 = bandOf Wf (headAt i))
    (hy1 : (i 1).val = (y 1).val) (hy2 : (i 2).val % 128 = (y 2).val) :
    k0_pay1 (F := Ideal) (k0_pay2 x0 x1 x2) y = fusedArr X W Wf i := by
  subst h0 h1 h2
  have hy0 : (y 0).val < 1 := (y 0).isLt
  have hi1 : (i 1).val < 512 := (i 1).isLt
  unfold fusedArr
  show (shapeCast S1x512x128 (k0_pay2 (rowsOf X (i 0)) (headOf W (headAt i)) (bandOf Wf (headAt i))) shapeCasts_S512x128_S1x512x128) y = _
  exact shapeCast_apply _ _ y (ix2 (i 1) (laneAt i)) (by
    rw [Shape.rowMajor_val_two, Shape.rowMajor_val_three]
    show (i 1).val * 128 + (i 2).val % 128 = ((y 0).val * 512 + (y 1).val) * 128 + (y 2).val
    omega)

/-- The fused weight's block at a point whose block index on the head axis is `n` and 0 elsewhere is head `n`. -/
theorem fused_head_block (W : Vec Ideal S8x1024x384 .bf16) (n : Fin 8) (k0 k1 k2 : Nat) (y : S1x1024x384.Idx) (p : S8x1024x384.Idx)
    (hp0 : (p 0).val = k0 * 1 + 1 * (y 0).val) (hp1 : (p 1).val = k1 * 1024 + 1 * (y 1).val) (hp2 : (p 2).val = k2 * 384 + 1 * (y 2).val)
    (e0 : k0 = n.val) (e1 : k1 = 0) (e2 : k2 = 0) : W p = headOf W n y := by
  unfold headOf
  congr 1
  funext a; apply Fin.ext
  have hy : (y 0).val < 1 := (y 0).isLt
  match a with
  | ⟨0, _⟩ => show (p 0).val = n.val; omega
  | ⟨1, _⟩ => show (p 1).val = (y 1).val; omega
  | ⟨2, _⟩ => show (p 2).val = (y 2).val; omega

/-- The output weight's block at a point whose block index is 0 on the rows and `n` on the columns is column band `n`. -/
theorem fused_band_block (Wf : Vec Ideal S1024x1024 .f32) (n : Fin 8) (k0 k1 : Nat) (y : S1024x128.Idx) (p : S1024x1024.Idx)
    (hp0 : (p 0).val = k0 * 1024 + 1 * (y 0).val) (hp1 : (p 1).val = k1 * 128 + 1 * (y 1).val)
    (e0 : k0 = 0) (e1 : k1 = n.val) : Wf p = bandOf Wf n y := by
  unfold bandOf
  congr 1
  funext a; apply Fin.ext
  match a with
  | ⟨0, _⟩ => show (p 0).val = (y 0).val; omega
  | ⟨1, _⟩ => show (p 1).val = n.val * 128 + (y 1).val; omega

/-- What point `t` writes back is the array function read through the point's tile. -/
theorem fused_flushed (c : Dev nD) (t : Fin cfg0.N) :
    (dats m 0 c).flushed 3 t = ((cfg0.win 3).blk t).view.read (Elt Ideal) (fusedArr (V m c main_v0) (V m c main_v1) (V m c main_v2)) := by
  show (cfg0.win 3).cut (grid0.coords t) ((dats m 0 c).after 3 t) = _
  rw [after0_3]
  unfold out0_3
  rw [View.canon_unit_zero fused_zero3]
  simp only [View.ld_unit_zero (S := S1x512x1024) fused_zero3, View.ld_unit_zero (S := S1x1024x384) fused_zero3, View.ld_unit_zero (S := S1024x128) fused_zero2]
  obtain ⟨a0, a1, a2, b0, b1, b2, c0, c1, o0, o1, o2⟩ := fused_idx t
  refine funext fun (j : S1x512x128.Idx) => ?_
  have hj0 : (j 0).val < 1 := (j 0).isLt
  have hj2 : (j 2).val < 128 := (j 2).isLt
  show k0_pay1 (k0_pay2 (iblk m c 0 t) (iblk m c 1 t) (iblk m c 2 t)) j
    = fusedArr (V m c main_v0) (V m c main_v1) (V m c main_v2) (((cfg0.win 3).blk t).view.emb j)
  have hd : ((((cfg0.win 3).blk t).view.emb j) 2).val = win0_3.index t (2 : Fin 3) * 128 + 1 * (j 2).val := rfl
  have hh : (headAt (((cfg0.win 3).blk t).view.emb j)).val = ((((cfg0.win 3).blk t).view.emb j) 2).val / 128 := rfl
  refine fused_point _ _ _ _ _ _ j _ ?_ ?_ ?_ ?_ ?_
  · funext y
    unfold iblk rowsOf
    rw [View.read_apply]
    show V m c main_v0 (((cfg0.win 0).blk t).view.emb y) = V m c main_v0 (ix3 ((((cfg0.win 3).blk t).view.emb j) 0) (y 1) (y 2))
    congr 1
    funext a; apply Fin.ext
    have hy : (y 0).val < 1 := (y 0).isLt
    match a with
    | ⟨0, _⟩ => show win0_0.index t (0 : Fin 3) * 1 + 1 * (y 0).val = win0_3.index t (0 : Fin 3) * 1 + 1 * (j 0).val; omega
    | ⟨1, _⟩ => show win0_0.index t (1 : Fin 3) * 512 + 1 * (y 1).val = (y 1).val; omega
    | ⟨2, _⟩ => show win0_0.index t (2 : Fin 3) * 1024 + 1 * (y 2).val = (y 2).val; omega
  · funext y
    unfold iblk
    rw [View.read_apply]
    exact fused_head_block (V m c main_v1) _ (win0_1.index t (0 : Fin 3)) (win0_1.index t (1 : Fin 3)) (win0_1.index t (2 : Fin 3)) y _ rfl rfl rfl (by omega) b1 b2
  · funext y
    unfold iblk
    rw [View.read_apply]
    exact fused_band_block (V m c main_v2) _ (win0_2.index t (0 : Fin 2)) (win0_2.index t (1 : Fin 2)) y _ rfl rfl c0 (by omega)
  · show win0_3.index t (1 : Fin 3) * 512 + 1 * (j 1).val = (j 1).val; omega
  · show (win0_3.index t (2 : Fin 3) * 128 + 1 * (j 2).val) % 128 = (j 2).val; omega

/-- An index of the output array is in point `t`'s tile iff each coordinate is in the tile's range on its axis. -/
theorem fused_mem (t : Fin cfg0.N) (i : S16x512x1024.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v3).slice (win0_3.rect t)).set ↔ _
  rw [View.set_slice_whole, Rect.mem_set_unit]
  exact Iff.rfl

/-- Every (batch member, column band) pair is some point's tile. -/
theorem fused_onto : ∀ (q0 : Fin 16) (q2 : Fin 8), ∃ t : Fin cfg0.N, win0_3.index t = ![q0.val, 0, q2.val] :=
  (by decide +kernel : ∀ (q0 : Fin 16) (q2 : Fin 8), ∃ t : Fin grid0.N, win0_3.index t = ![q0.val, 0, q2.val])

/-- The tiles cover the output array: index (b, s, d) is in the tile of the point (b, d / 128). -/
theorem fused_cover (i : S16x512x1024.Idx) :
    ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 1024 := (i 2).isLt
  obtain ⟨t, ht⟩ := fused_onto ⟨(i 0).val, hi0⟩ ⟨(i 2).val / 128, by omega⟩
  have q0 : win0_3.index t (0 : Fin 3) = (i 0).val := congrFun ht 0
  have q1 : win0_3.index t (1 : Fin 3) = 0 := congrFun ht 1
  have q2 : win0_3.index t (2 : Fin 3) = (i 2).val / 128 := congrFun ht 2
  refine ⟨t, flush0_3 t, ?_⟩
  rw [fused_mem]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- The fused kernel's output array after the run is the whole-array function of the three input arrays. -/
theorem fused_final (c : Dev nD) :
    (dats m 0 c).arrAt 3 cfg0.N = fusedArr (V m c main_v0) (V m c main_v1) (V m c main_v2) :=
  (dats m 0 c).arrAt_eq_of_cover 3 (fusedArr (V m c main_v0) (V m c main_v1) (V m c main_v2)) (fun t _ => fused_flushed m c t) fused_cover

end Cert.KernelIdeal.KerValue

end
-- ==== Proof.KerRun.lean ====
/-
  The idealized fused kernel's run with its result as ONE function of the argument arrays: the region's output array
  (every (batch, head) point's tile in its place) of the activations and the fused weight after their change of
  format and of the output weight re-read as [1024,1024].
-/
import proofs.«157704_g2000707044854804_pallasbulk_1172_2_alg».proof.Proof.Gen.KernelIdeal.Value
import proofs.«157704_g2000707044854804_pallasbulk_1172_2_alg».proof.Proof.KerHost
import proofs.«157704_g2000707044854804_pallasbulk_1172_2_alg».proof.Proof.KerFinal

set_option maxRecDepth 16384

noncomputable section

namespace Cert.KernelIdeal.KerValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel's result, as a function of the three argument arrays. -/
def kerResult (X : Vec Ideal S16x512x1024 .f32) (W : Vec Ideal S8x1024x384 .f32) (Wo : Vec Ideal S8x128x1024 .f32) :
    Vec Ideal S16x512x1024 .f32 :=
  fusedArr
    (truncf .bf16 (X : FVec Ideal S16x512x1024 .f32) bitsLt_bf16_f32 : FVec Ideal S16x512x1024 .bf16)
    (truncf .bf16 (W : FVec Ideal S8x1024x384 .f32) bitsLt_bf16_f32 : FVec Ideal S8x1024x384 .bf16)
    (shapeCast S1024x1024 Wo shapeCasts_S8x128x1024_S1024x1024)

/-- The output array after the run, from the launch memory. -/
theorem result_value (c : Dev nD) :
    (dats m 0 c).arrAt 3 cfg0.N
      = kerResult (m ((c : Thread nD τ).loc main_arg0)) (m ((c : Thread nD τ).loc main_arg1)) (m ((c : Thread nD τ).loc main_arg2)) := by
  refine (fused_final m c).trans ?_
  rw [KerHost.entry_v0 m c, KerHost.entry_v1 m c, KerHost.entry_v2 m c]
  rfl

/-- THE KERNEL'S RUN: it terminates without a fault, with the result at `kerResult` of the arguments, the arguments as
    launched. -/
theorem run : θ_run defs (onTc (τ := τ) (main (F := Ideal))) ⟨m, fun _ => 0, ρ⟩ (fun r => ∀ c : Dev nD,
      r.2.mem ((c : Thread nD τ).loc main_v3)
        = kerResult (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h c).1.trans (result_value m c), (h c).2⟩) (Value.run_blocks m ρ)

end Cert.KernelIdeal.KerValue

end
-- ==== Proof.RefRun.lean ====
/-
  The idealized reference's run with its RESULT named.  Its @main is: three column bands cut from the fused
  projection weights, the attention region over the grid (batch, head), a reshape and a transpose of the heads'
  outputs, a reshape of the output weights, and the scaling region over the grid (batch).  The buffer contents
  at the five boundaries of that chain are the fold `W0 … W4` of the generated frame module; here the run is
  stated with the final contents of the result buffer: it ends at `W4 … main_v7`, the argument arrays as launched.
-/
import proofs.«157704_g2000707044854804_pallasbulk_1172_2_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference's @main terminates without a fault; the result buffer then holds
    the last boundary's contents `W4` (what the scaling region's write-backs leave), and the arguments are as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The result buffer's last contents are what the scaling region's write-backs leave in its output window's array. -/
theorem W4_result (c : Dev nD) :
    W4 m ρ c (Proc.devRef .tc main_v7) = (dat1 (V3 m ρ) c).arrAt 2 cfg1.N :=
  W4_arr m ρ c 2

end Cert.ReferenceIdeal.RefRun

end
-- ==== Proof.RefHost.lean ====
/-
  The reference's host operations, read.  Before the attention region the fused projection weight [8,1024,384] is cut
  into its three column bands of width 128 (queries, keys, values); between the regions the attention output
  [16,8,512,128] is re-read as [16,1024,512] (same row-major order) and its last two axes are exchanged, and the output
  weight [8,128,1024] is re-read as [1024,1024].
-/
import proofs.«157704_g2000707044854804_pallasbulk_1172_2_alg».proof.Proof.Gen.ReferenceIdeal.Frame
import Idealize.ShloMosaic.Lib.StableHlo.Run

set_option maxRecDepth 16384

noncomputable section

namespace Cert.ReferenceIdeal.RefHost

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The attention region finds the activations as launched. -/
theorem entry_arg0 (c : Dev nD) :
    (V1 m ρ c main_arg0 : S16x512x1024.Idx → Elt F .f32) = m ((c : Thread nD τ).loc main_arg0) := by
  dsimp only [V1, W1, W0, hostOps0]; after_results <;> rfl

/-- It finds the query weights as the first column band of the fused weight, -/
theorem entry_v0 (c : Dev nD) :
    (V1 m ρ c main_v0 : S8x1024x128.Idx → Elt F .f32)
      = extractStridedSlice S8x1024x128 ![0, 0, 0] (m ((c : Thread nD τ).loc main_arg1)) slices_S8x1024x384_S8x1024x128_0_0_0 := by
  dsimp only [V1, W1, W0, hostOps0]; after_results <;> rfl

/-- the key weights as the second, -/
theorem entry_v1 (c : Dev nD) :
    (V1 m ρ c main_v1 : S8x1024x128.Idx → Elt F .f32)
      = extractStridedSlice S8x1024x128 ![0, 0, 128] (m ((c : Thread nD τ).loc main_arg1)) slices_S8x1024x384_S8x1024x128_0_0_128 := by
  dsimp only [V1, W1, W0, hostOps0]; after_results <;> rfl

/-- and the value weights as the third. -/
theorem entry_v2 (c : Dev nD) :
    (V1 m ρ c main_v2 : S8x1024x128.Idx → Elt F .f32)
      = extractStridedSlice S8x1024x128 ![0, 0, 256] (m ((c : Thread nD τ).loc main_arg1)) slices_S8x1024x384_S8x1024x128_0_0_256 := by
  dsimp only [V1, W1, W0, hostOps0]; after_results <;> rfl

/-- The scaling region finds, as its first operand, the attention region's output re-read as [16,1024,512] with the
    last two axes exchanged, -/
theorem entry_v5 (c : Dev nD) :
    (V3 m ρ c main_v5 : S16x512x1024.Idx → Elt F .f32)
      = transpose S16x512x1024 [0, 2, 1]
          (shapeCast S16x1024x512 (W2 m ρ c (Proc.devRef .tc main_v3) : S16x8x512x128.Idx → Elt F .f32) shapeCasts_S16x8x512x128_S16x1024x512)
          transposes_S16x1024x512_S16x512x1024_0_2_1 := by
  dsimp only [V3, W3, hostOps1]; after_results <;> rfl

/-- and, as its second, the output weight re-read as [1024,1024]. -/
theorem entry_v6 (c : Dev nD) :
    (V3 m ρ c main_v6 : S1024x1024.Idx → Elt F .f32)
      = shapeCast S1024x1024 (m ((c : Thread nD τ).loc main_arg2) : S8x128x1024.Idx → Elt F .f32) shapeCasts_S8x128x1024_S1024x1024 := by
  dsimp only [V3, W3, hostOps1]; after_results <;> rfl

end Cert.ReferenceIdeal.RefHost

end
-- ==== Proof.RefSpec.lean ====
/-
  What the idealized reference's two regions leave in their output arrays, as whole-array functions.

  The attention region runs over the grid (batch b, head n): its body is given batch member b of the activations
  and head n of each of the three projection weights, and stores one [512,128] tile; the output array [16,8,512,128]
  therefore holds, at (b, n, s, h), the body's value of those four blocks at (s, h).
  The scaling region runs over the grid (batch b): its body is given batch member b of the re-laid attention output
  and the whole flattened output weight, and stores one [512,1024] tile; the output array holds, at (b, s, d), the
  body's value of those two blocks at (0, s, d).
-/
import proofs.«157704_g2000707044854804_pallasbulk_1172_2_alg».proof.Proof.Gen.ReferenceIdeal.Frame
import Idealize.ShloMosaic.Lib.ValueIdx

noncomputable section

namespace Cert.ReferenceIdeal.RefValue

open Idealize.ShloMosaic Idealize.ShloMosaic.ValueIdx Cert.ReferenceIdeal Cert.ReferenceIdeal.Gen

/-- Batch member `b` of a [16,512,1024] array, as the one-member block [1,512,1024]. -/
def rowsOf (X : Vec Ideal S16x512x1024 .f32) (b : Fin 16) : Vec Ideal S1x512x1024 .f32 :=
  fun y => X (ix3 b (y 1) (y 2))

/-- Head `n` of an [8,1024,128] weight, as the one-member block [1,1024,128]. -/
def headOf (W : Vec Ideal S8x1024x128 .f32) (n : Fin 8) : Vec Ideal S1x1024x128 .f32 :=
  fun y => W (ix3 n (y 1) (y 2))

/-- The attention region's output array: at (b, n, s, h) the body's value, of batch member b and head n of the
    three weights, at (s, h). -/
def attnArr (X : Vec Ideal S16x512x1024 .f32) (Wq Wk Wv : Vec Ideal S8x1024x128 .f32) : Vec Ideal S16x8x512x128 .f32 :=
  fun i => k0_pay2 (F := Ideal) (rowsOf X (i 0)) (headOf Wq (i 1)) (headOf Wk (i 1)) (headOf Wv (i 1)) (ix2 (i 2) (i 3))

/-- The scaling region's output array: at (b, s, d) the body's value, of the whole flattened weight and batch member
    b of the re-laid attention output, at (0, s, d). -/
def scaledArr (Y : Vec Ideal S16x512x1024 .f32) (Wf : Vec Ideal S1024x1024 .f32) : Vec Ideal S16x512x1024 .f32 :=
  fun i => k1_pay1 (F := Ideal) Wf (rowsOf Y (i 0)) (ix3 (0 : Fin 1) (i 1) (i 2))

end Cert.ReferenceIdeal.RefValue

end
-- ==== Proof.RefAttnFinal.lean ====
/-
  The attention region's output array, after the region has run over its grid, is the whole-array function `attnArr`
  of the four arrays the region reads.

  At the point (b, n) the body is given batch member b of the activations and head n of each of the three projection
  weights, and stores the tile [1,1,512,128] at (b, n, 0, 0).  So what the point writes back is the array function read
  through the point's tile (`attn_flushed`); the 16 × 8 tiles cover the array (`attn_cover`); hence the array ends
  holding the function (`attn_final`).
-/
import proofs.«157704_g2000707044854804_pallasbulk_1172_2_alg».proof.Proof.RefSpec
import Idealize.ShloMosaic.Lib.Pipeline.Value

noncomputable section

namespace Cert.ReferenceIdeal.RefValue

open Idealize.ShloMosaic Idealize.ShloMosaic.TcCoe Idealize.ShloMosaic.ValueIdx Idealize.SL.Sem Cert.ReferenceIdeal Cert.ReferenceIdeal.Gen
open Idealize.ShloMosaic.Pipeline (Dat)

variable (V : (c : Dev nD) → (b : Ref sig .tc) → Buf (Elt Ideal) ((c : Thread nD τ).loc b))

/-- The zero offset of a rank-3 access. -/
theorem attn_zero3 : (![0, 0, 0] : Fin 3 → Nat) = fun _ => 0 := funext fun a => by fin_cases a <;> rfl
/-- The zero offset of a rank-4 access. -/
theorem attn_zero4 : (![0, 0, 0, 0] : Fin 4 → Nat) = fun _ => 0 := funext fun a => by fin_cases a <;> rfl

/-- The block indices over the grid: the activations move with the output's batch axis, the three weights with the
    output's head axis, every other block index is 0, and the output's batch and head indices stay in range. -/
theorem attn_idx : ∀ t : Fin cfg0.N, win0_0.index t (0 : Fin 3) = win0_4.index t (0 : Fin 4)
    ∧ win0_0.index t (1 : Fin 3) = 0 ∧ win0_0.index t (2 : Fin 3) = 0
    ∧ win0_1.index t (0 : Fin 3) = win0_4.index t (1 : Fin 4)
    ∧ win0_1.index t (1 : Fin 3) = 0 ∧ win0_1.index t (2 : Fin 3) = 0
    ∧ win0_2.index t (0 : Fin 3) = win0_4.index t (1 : Fin 4)
    ∧ win0_2.index t (1 : Fin 3) = 0 ∧ win0_2.index t (2 : Fin 3) = 0
    ∧ win0_3.index t (0 : Fin 3) = win0_4.index t (1 : Fin 4)
    ∧ win0_3.index t (1 : Fin 3) = 0 ∧ win0_3.index t (2 : Fin 3) = 0
    ∧ win0_4.index t (0 : Fin 4) < 16 ∧ win0_4.index t (1 : Fin 4) < 8
    ∧ win0_4.index t (2 : Fin 4) = 0 ∧ win0_4.index t (3 : Fin 4) = 0 :=
  (by decide +kernel : ∀ t : Fin grid0.N, _)

/-- The stored tile at a tile position is the array function at the index the position lands on, once the four loaded
    blocks are known to be the index's own batch member and head. -/
theorem attn_point (x0 : Vec Ideal S1x512x1024 .f32) (x1 x2 x3 : Vec Ideal S1x1024x128 .f32)
    (X : Vec Ideal S16x512x1024 .f32) (Wq Wk Wv : Vec Ideal S8x1024x128 .f32)
    (y : S1x1x512x128.Idx) (i : S16x8x512x128.Idx)
    (h0 : x0 = rowsOf X (i 0)) (h1 : x1 = headOf Wq (i 1)) (h2 : x2 = headOf Wk (i 1)) (h3 : x3 = headOf Wv (i 1))
    (hy2 : (i 2).val = (y 2).val) (hy3 : (i 3).val = (y 3).val) :
    k0_pay1 (F := Ideal) (k0_pay2 x0 x1 x2 x3) y = attnArr X Wq Wk Wv i := by
  subst h0 h1 h2 h3
  have hy0 : (y 0).val < 1 := (y 0).isLt
  have hy1 : (y 1).val < 1 := (y 1).isLt
  have hi2 : (i 2).val < 512 := (i 2).isLt
  have hi3 : (i 3).val < 128 := (i 3).isLt
  unfold attnArr
  show (shapeCast S1x1x512x128 (k0_pay2 (rowsOf X (i 0)) (headOf Wq (i 1)) (headOf Wk (i 1)) (headOf Wv (i 1))) shapeCasts_S512x128_S1x1x512x128) y = _
  exact shapeCast_apply _ _ y (ix2 (i 2) (i 3)) (by
    rw [Shape.rowMajor_val_two, Shape.rowMajor_val_four]
    show (i 2).val * 128 + (i 3).val = (((y 0).val * 1 + (y 1).val) * 512 + (y 2).val) * 128 + (y 3).val
    omega)

/-- A weight window's block at a point whose block index on the head axis is `n` and 0 elsewhere is head `n`. -/
theorem attn_head_block (W : Vec Ideal S8x1024x128 .f32) (n : Fin 8) (k0 k1 k2 : Nat) (y : S1x1024x128.Idx) (p : S8x1024x128.Idx)
    (hp0 : (p 0).val = k0 * 1 + 1 * (y 0).val) (hp1 : (p 1).val = k1 * 1024 + 1 * (y 1).val) (hp2 : (p 2).val = k2 * 128 + 1 * (y 2).val)
    (e0 : k0 = n.val) (e1 : k1 = 0) (e2 : k2 = 0) : W p = headOf W n y := by
  unfold headOf
  congr 1
  funext a; apply Fin.ext
  have hy : (y 0).val < 1 := (y 0).isLt
  match a with
  | ⟨0, _⟩ => show (p 0).val = n.val; omega
  | ⟨1, _⟩ => show (p 1).val = (y 1).val; omega
  | ⟨2, _⟩ => show (p 2).val = (y 2).val; omega

/-- What point `t` writes back is the array function read through the point's tile. -/
theorem attn_flushed (c : Dev nD) (t : Fin cfg0.N) :
    (dat0 V c).flushed 4 t = ((cfg0.win 4).blk t).view.read (Elt Ideal) (attnArr (V c main_arg0) (V c main_v0) (V c main_v1) (V c main_v2)) := by
  show (cfg0.win 4).cut (grid0.coords t) ((dat0 V c).after 4 t) = _
  rw [after0_4]
  unfold out0_4
  rw [View.canon_unit_zero attn_zero4]
  simp only [View.ld_unit_zero (S := S1x512x1024) attn_zero3, View.ld_unit_zero (S := S1x1024x128) attn_zero3]
  obtain ⟨a0, a1, a2, b0, b1, b2, c0, c1, c2, d0, d1, d2, o0, o1, o2, o3⟩ := attn_idx t
  refine funext fun (j : S1x1x512x128.Idx) => ?_
  have hj0 : (j 0).val < 1 := (j 0).isLt
  have hj1 : (j 1).val < 1 := (j 1).isLt
  show k0_pay1 (k0_pay2 (iblk0 V c 0 t) (iblk0 V c 1 t) (iblk0 V c 2 t) (iblk0 V c 3 t)) j
    = attnArr (V c main_arg0) (V c main_v0) (V c main_v1) (V c main_v2) (((cfg0.win 4).blk t).view.emb j)
  have hb : ((((cfg0.win 4).blk t).view.emb j) 0).val = win0_4.index t (0 : Fin 4) * 1 + 1 * (j 0).val := rfl
  have hn : ((((cfg0.win 4).blk t).view.emb j) 1).val = win0_4.index t (1 : Fin 4) * 1 + 1 * (j 1).val := rfl
  refine attn_point _ _ _ _ _ _ _ _ j _ ?_ ?_ ?_ ?_ ?_ ?_
  · funext y
    unfold iblk0 rowsOf
    rw [View.read_apply]
    show V c main_arg0 (((cfg0.win 0).blk t).view.emb y) = V c main_arg0 (ix3 ((((cfg0.win 4).blk t).view.emb j) 0) (y 1) (y 2))
    congr 1
    funext a; apply Fin.ext
    have hy : (y 0).val < 1 := (y 0).isLt
    match a with
    | ⟨0, _⟩ => show win0_0.index t (0 : Fin 3) * 1 + 1 * (y 0).val = win0_4.index t (0 : Fin 4) * 1 + 1 * (j 0).val; omega
    | ⟨1, _⟩ => show win0_0.index t (1 : Fin 3) * 512 + 1 * (y 1).val = (y 1).val; omega
    | ⟨2, _⟩ => show win0_0.index t (2 : Fin 3) * 1024 + 1 * (y 2).val = (y 2).val; omega
  · funext y
    unfold iblk0
    rw [View.read_apply]
    exact attn_head_block (V c main_v0) _ (win0_1.index t (0 : Fin 3)) (win0_1.index t (1 : Fin 3)) (win0_1.index t (2 : Fin 3)) y _ rfl rfl rfl (by omega) b1 b2
  · funext y
    unfold iblk0
    rw [View.read_apply]
    exact attn_head_block (V c main_v1) _ (win0_2.index t (0 : Fin 3)) (win0_2.index t (1 : Fin 3)) (win0_2.index t (2 : Fin 3)) y _ rfl rfl rfl (by omega) c1 c2
  · funext y
    unfold iblk0
    rw [View.read_apply]
    exact attn_head_block (V c main_v2) _ (win0_3.index t (0 : Fin 3)) (win0_3.index t (1 : Fin 3)) (win0_3.index t (2 : Fin 3)) y _ rfl rfl rfl (by omega) d1 d2
  · show win0_4.index t (2 : Fin 4) * 512 + 1 * (j 2).val = (j 2).val; omega
  · show win0_4.index t (3 : Fin 4) * 128 + 1 * (j 3).val = (j 3).val; omega

/-- An index of the output array is in point `t`'s tile iff each coordinate is in the tile's range on its axis. -/
theorem attn_mem (t : Fin cfg0.N) (i : S16x8x512x128.Idx) :
    i ∈ ((cfg0.win 4).blk t).view.set ↔ ∀ a : Fin 4, win0_4.index t a * S1x1x512x128.size a ≤ (i a).val ∧ (i a).val < win0_4.index t a * S1x1x512x128.size a + S1x1x512x128.size a := by
  show i ∈ ((View.whole main_v3).slice (win0_4.rect t)).set ↔ _
  rw [View.set_slice_whole, Rect.mem_set_unit]
  exact Iff.rfl

/-- Every (batch member, head) pair is some point's tile. -/
theorem attn_onto : ∀ (q0 : Fin 16) (q1 : Fin 8), ∃ t : Fin cfg0.N, win0_4.index t = ![q0.val, q1.val, 0, 0] :=
  (by decide +kernel : ∀ (q0 : Fin 16) (q1 : Fin 8), ∃ t : Fin grid0.N, win0_4.index t = ![q0.val, q1.val, 0, 0])

/-- The tiles cover the output array: index (b, n, s, h) is in the tile of the point (b, n). -/
theorem attn_cover (i : S16x8x512x128.Idx) :
    ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 512 := (i 2).isLt
  have hi3 : (i 3).val < 128 := (i 3).isLt
  obtain ⟨t, ht⟩ := attn_onto ⟨(i 0).val, hi0⟩ ⟨(i 1).val, hi1⟩
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [attn_mem]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 128 ≤ (i 3).val ∧ (i 3).val < win0_4.index t (3 : Fin 4) * 128 + 128; omega

/-- The attention region's output array after the run is the whole-array function of the four input arrays. -/
theorem attn_final (c : Dev nD) :
    (dat0 V c).arrAt 4 cfg0.N = attnArr (V c main_arg0) (V c main_v0) (V c main_v1) (V c main_v2) :=
  (dat0 V c).arrAt_eq_of_cover 4 (attnArr (V c main_arg0) (V c main_v0) (V c main_v1) (V c main_v2)) (fun t _ => attn_flushed V c t) attn_cover

end Cert.ReferenceIdeal.RefValue

end
-- ==== Proof.RefScaleFinal.lean ====
/-
  The scaling region's output array, after the region has run over its grid, is the whole-array function `scaledArr`
  of the two arrays the region reads.

  At the point of batch member b the body is given batch member b of the re-laid attention output and the whole
  flattened weight, and stores the tile [1,512,1024] at (b, 0, 0).  So what the point writes back is the array function
  read through the point's tile (`scale_flushed`); the sixteen tiles cover the array (`scale_cover`); hence the array
  ends holding the function (`scale_final`).
-/
import proofs.«157704_g2000707044854804_pallasbulk_1172_2_alg».proof.Proof.RefSpec
import Idealize.ShloMosaic.Lib.Pipeline.Value

noncomputable section

namespace Cert.ReferenceIdeal.RefValue

open Idealize.ShloMosaic Idealize.ShloMosaic.TcCoe Idealize.ShloMosaic.ValueIdx Idealize.SL.Sem Cert.ReferenceIdeal Cert.ReferenceIdeal.Gen
open Idealize.ShloMosaic.Pipeline (Dat)

variable (V : (c : Dev nD) → (b : Ref sig .tc) → Buf (Elt Ideal) ((c : Thread nD τ).loc b))

/-- The zero offset of a rank-3 access. -/
theorem zero3 : (![0, 0, 0] : Fin 3 → Nat) = fun _ => 0 := funext fun a => by fin_cases a <;> rfl
/-- The zero offset of a rank-2 access. -/
theorem zero2 : (![0, 0] : Fin 2 → Nat) = fun _ => 0 := funext fun a => by fin_cases a <;> rfl

/-- The block indices over the grid: the first input moves with the output along the batch axis and sits at 0 on the
    other two; the weight's block is at (0, 0); the output's batch index stays below 16 and its other two are 0. -/
theorem scale_idx : ∀ t : Fin cfg1.N, win1_0.index t (0 : Fin 3) = win1_2.index t (0 : Fin 3)
    ∧ win1_0.index t (1 : Fin 3) = 0 ∧ win1_0.index t (2 : Fin 3) = 0
    ∧ win1_1.index t (0 : Fin 2) = 0 ∧ win1_1.index t (1 : Fin 2) = 0
    ∧ win1_2.index t (0 : Fin 3) < 16 ∧ win1_2.index t (1 : Fin 3) = 0 ∧ win1_2.index t (2 : Fin 3) = 0 :=
  (by decide +kernel : ∀ t : Fin grid1.N, _)

/-- The body's value at a tile position is the array function at the index the position lands on, once the two
    loaded blocks are known to be the whole weight and the index's own batch member. -/
theorem scale_point (x1 Wf : Vec Ideal S1024x1024 .f32) (x0 : Vec Ideal S1x512x1024 .f32) (Y : Vec Ideal S16x512x1024 .f32)
    (y : S1x512x1024.Idx) (i : S16x512x1024.Idx)
    (h1 : x1 = Wf) (h0 : x0 = rowsOf Y (i 0)) (hy1 : (i 1).val = (y 1).val) (hy2 : (i 2).val = (y 2).val) :
    k1_pay1 (F := Ideal) x1 x0 y = scaledArr Y Wf i := by
  subst h1 h0
  unfold scaledArr
  congr 1
  funext a
  match a with
  | ⟨0, _⟩ => exact Fin.ext (by have h : (y 0).val < 1 := (y 0).isLt; show (y 0).val = 0; omega)
  | ⟨1, _⟩ => exact Fin.ext hy1.symm
  | ⟨2, _⟩ => exact Fin.ext hy2.symm

/-- What point `t` writes back is the array function read through the point's tile. -/
theorem scale_flushed (c : Dev nD) (t : Fin cfg1.N) :
    (dat1 V c).flushed 2 t = ((cfg1.win 2).blk t).view.read (Elt Ideal) (scaledArr (V c main_v5) (V c main_v6)) := by
  show (cfg1.win 2).cut (grid1.coords t) ((dat1 V c).after 2 t) = _
  rw [after1_2]
  unfold out1_2
  rw [View.canon_unit_zero zero3]
  simp only [View.ld_unit_zero (S := S1024x1024) zero2, View.ld_unit_zero (S := S1x512x1024) zero3]
  obtain ⟨e0, e1, e2, e3, e4, e5, e6, e7⟩ := scale_idx t
  refine funext fun (j : S1x512x1024.Idx) => ?_
  show k1_pay1 (iblk1 V c 1 t) (iblk1 V c 0 t) j = scaledArr (V c main_v5) (V c main_v6) (((cfg1.win 2).blk t).view.emb j)
  refine scale_point _ _ _ _ j _ ?_ ?_ ?_ ?_
  · funext y
    unfold iblk1
    rw [View.read_apply]
    show V c main_v6 (((cfg1.win 1).blk t).view.emb y) = V c main_v6 y
    congr 1
    funext a; apply Fin.ext
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · funext y
    unfold iblk1 rowsOf
    rw [View.read_apply]
    show V c main_v5 (((cfg1.win 0).blk t).view.emb y) = V c main_v5 (ix3 ((((cfg1.win 2).blk t).view.emb j) 0) (y 1) (y 2))
    congr 1
    funext a; apply Fin.ext
    have hy : (y 0).val < 1 := (y 0).isLt
    have hj : (j 0).val < 1 := (j 0).isLt
    match a with
    | ⟨0, _⟩ => show win1_0.index t (0 : Fin 3) * 1 + 1 * (y 0).val = win1_2.index t (0 : Fin 3) * 1 + 1 * (j 0).val; omega
    | ⟨1, _⟩ => show win1_0.index t (1 : Fin 3) * 512 + 1 * (y 1).val = (y 1).val; omega
    | ⟨2, _⟩ => show win1_0.index t (2 : Fin 3) * 1024 + 1 * (y 2).val = (y 2).val; omega
  · show win1_2.index t (1 : Fin 3) * 512 + 1 * (j 1).val = (j 1).val; omega
  · show win1_2.index t (2 : Fin 3) * 1024 + 1 * (j 2).val = (j 2).val; omega

/-- An index of the output array is in point `t`'s tile iff each coordinate is in the tile's range on its axis. -/
theorem scale_mem (t : Fin cfg1.N) (i : S16x512x1024.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v7).slice (win1_2.rect t)).set ↔ _
  rw [View.set_slice_whole, Rect.mem_set_unit]
  exact Iff.rfl

/-- Every batch member is some point's tile. -/
theorem scale_onto : ∀ (q0 : Fin 16), ∃ t : Fin cfg1.N, win1_2.index t = ![q0.val, 0, 0] :=
  (by decide +kernel : ∀ (q0 : Fin 16), ∃ t : Fin grid1.N, win1_2.index t = ![q0.val, 0, 0])

/-- The tiles cover the output array: index (b, s, d) is in the tile of the point whose batch member is b. -/
theorem scale_cover (i : S16x512x1024.Idx) :
    ∃ t : Fin cfg1.N, (cfg1.win 2).flush t = true ∧ i ∈ ((cfg1.win 2).blk t).view.set := by
  have hi0 : (i 0).val < 16 := (i 0).isLt
  have hi1 : (i 1).val < 512 := (i 1).isLt
  have hi2 : (i 2).val < 1024 := (i 2).isLt
  obtain ⟨t, ht⟩ := scale_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [scale_mem]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 1024 ≤ (i 2).val ∧ (i 2).val < win1_2.index t (2 : Fin 3) * 1024 + 1024; omega

/-- The scaling region's output array after the run is the whole-array function of the two input arrays. -/
theorem scale_final (c : Dev nD) :
    (dat1 V c).arrAt 2 cfg1.N = scaledArr (V c main_v5) (V c main_v6) :=
  (dat1 V c).arrAt_eq_of_cover 2 (scaledArr (V c main_v5) (V c main_v6)) (fun t _ => scale_flushed V c t) scale_cover

end Cert.ReferenceIdeal.RefValue

end
-- ==== Proof.RefFinal.lean ====
/-
  The idealized reference's result as ONE function of the argument arrays: the scaling region's output of (the host's
  re-laying of the attention region's output of the activations and the three weight bands) and the flattened output
  weight.  The chain of boundary contents is walked back from the result buffer to the launch memory: the result is the
  scaling region's output array; its operands are the host operations' results on the attention region's output array
  and on the output weight; the attention region's operands are the activations and the three host-cut bands.
-/
import proofs.«157704_g2000707044854804_pallasbulk_1172_2_alg».proof.Proof.RefRun
import proofs.«157704_g2000707044854804_pallasbulk_1172_2_alg».proof.Proof.RefHost
import proofs.«157704_g2000707044854804_pallasbulk_1172_2_alg».proof.Proof.RefAttnFinal
import proofs.«157704_g2000707044854804_pallasbulk_1172_2_alg».proof.Proof.RefScaleFinal

set_option maxRecDepth 16384

noncomputable section

namespace Cert.ReferenceIdeal.RefValue

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The reference's result, as a function of the three argument arrays. -/
def refResult (X : Vec Ideal S16x512x1024 .f32) (W : Vec Ideal S8x1024x384 .f32) (Wo : Vec Ideal S8x128x1024 .f32) :
    Vec Ideal S16x512x1024 .f32 :=
  scaledArr
    (transpose S16x512x1024 [0, 2, 1]
      (shapeCast S16x1024x512
        (attnArr X
          (extractStridedSlice S8x1024x128 ![0, 0, 0] W slices_S8x1024x384_S8x1024x128_0_0_0)
          (extractStridedSlice S8x1024x128 ![0, 0, 128] W slices_S8x1024x384_S8x1024x128_0_0_128)
          (extractStridedSlice S8x1024x128 ![0, 0, 256] W slices_S8x1024x384_S8x1024x128_0_0_256))
        shapeCasts_S16x8x512x128_S16x1024x512)
      transposes_S16x1024x512_S16x512x1024_0_2_1)
    (shapeCast S1024x1024 Wo shapeCasts_S8x128x1024_S1024x1024)

/-- The attention region's output array, from the launch memory. -/
theorem attn_value (c : Dev nD) :
    (W2 m ρ c (Proc.devRef .tc main_v3) : S16x8x512x128.Idx → Elt Ideal .f32)
      = attnArr (m ((c : Thread nD τ).loc main_arg0))
          (extractStridedSlice S8x1024x128 ![0, 0, 0] (m ((c : Thread nD τ).loc main_arg1)) slices_S8x1024x384_S8x1024x128_0_0_0)
          (extractStridedSlice S8x1024x128 ![0, 0, 128] (m ((c : Thread nD τ).loc main_arg1)) slices_S8x1024x384_S8x1024x128_0_0_128)
          (extractStridedSlice S8x1024x128 ![0, 0, 256] (m ((c : Thread nD τ).loc main_arg1)) slices_S8x1024x384_S8x1024x128_0_0_256) := by
  refine (W2_arr m ρ c 4).trans ((attn_final (V1 m ρ) c).trans ?_)
  rw [RefHost.entry_arg0 m ρ c, RefHost.entry_v0 m ρ c, RefHost.entry_v1 m ρ c, RefHost.entry_v2 m ρ c]

/-- The result buffer's last contents, from the launch memory. -/
theorem result_value (c : Dev nD) :
    (W4 m ρ c (Proc.devRef .tc main_v7) : S16x512x1024.Idx → Elt Ideal .f32)
      = refResult (m ((c : Thread nD τ).loc main_arg0)) (m ((c : Thread nD τ).loc main_arg1)) (m ((c : Thread nD τ).loc main_arg2)) := by
  refine (RefRun.W4_result m ρ c).trans ((scale_final (V3 m ρ) c).trans ?_)
  rw [RefHost.entry_v5 m ρ c, RefHost.entry_v6 m ρ c, attn_value m ρ c]
  rfl

/-- THE REFERENCE'S RUN: it terminates without a fault, with the result at `refResult` of the arguments, the arguments as
    launched. -/
theorem run : θ_run defs (onTc (τ := τ) (main (F := Ideal))) ⟨m, fun _ => 0, ρ⟩ (fun r => ∀ c : Dev nD,
      r.2.mem ((c.tc : Thread nD τ).loc main_v7)
        = refResult (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (RefRun.run_result m ρ)

end Cert.ReferenceIdeal.RefValue

end
-- ==== Proof.Attn.lean ====
/-
  The attention of one (batch, head) pair as a function of its three projections, and both bodies read through it.

  For q, k, v : [512,128] the value is  softmax_row(q kᵀ · 2^(-7/2)-literal + mask) v, where the mask adds 0 on and
  below the diagonal and the literal -1e10 above it, the row maximum is subtracted before the exponential, and the
  row sums divide.  The reference's body forms q, k, v as three products of the activations with the three weight
  bands and applies this function.  The fused body forms one product with the fused weight, cuts its three column
  bands, applies the same function (its changes of float format are the identity at exact arithmetic), re-lays the
  [512,128] result and scales its columns by the column sums of its band of the output weight.
-/
import proofs.«157704_g2000707044854804_pallasbulk_1172_2_alg».proof.Proof.Gen.ReferenceIdeal.Skeleton
import proofs.«157704_g2000707044854804_pallasbulk_1172_2_alg».proof.Proof.Gen.KernelIdeal.Skeleton
import Idealize.ShloMosaic.PureOps.Ideal.Laws

noncomputable section

namespace Cert.Attn

open Idealize.ShloMosaic

section Ref
open Cert.ReferenceIdeal Cert.ReferenceIdeal.Facts₀

/-- The attention of one head from its projections, in the reference's operations. -/
def attn (q k v : FVec Ideal S512x128 .f32) : FVec Ideal S512x128 .f32 :=
  have cst_13 : FVec Ideal S512x512 .f32 := constant S512x512 .f32 0x00000000#32
  have v11 : FVec Ideal S512x512 .f32 := matmul dot_S512x128_S512x128_S512x512_1_1_0_0_n_n none q k cst_13
  have cst_14 : Ideal .f32 := Scalar.ofBits .f32 0x3DB504F3#32
  have v12 : FVec Ideal S512x512 .f32 := broadcast S512x512 cst_14
  have v13 : FVec Ideal S512x512 .f32 := mulf v11 v12
  have v14 : IVec S512x512 32 := iota .tc S512x512 32 [0] iota_S512x512_d0_w32
  have v15 : IVec S512x512 32 := iota .tc S512x512 32 [1] iota_S512x512_d1_w32
  have v16 : IVec S512x512 1 := cmpi .sle v15 v14
  have cst_15 : Ideal .f32 := Scalar.ofBits .f32 0x00000000#32
  have cst_16 : Ideal .f32 := Scalar.ofBits .f32 0xD01502F9#32
  have v17 : FVec Ideal S512x512 .f32 := broadcast S512x512 cst_15
  have v18 : FVec Ideal S512x512 .f32 := broadcast S512x512 cst_16
  have v19 : FVec Ideal S512x512 .f32 := select v16 v17 v18
  have v20 : FVec Ideal S512x512 .f32 := addf v13 v19
  have v21 : FVec Ideal S512 .f32 := multiReduction .maximumf [1] S512 v20 0xFF800000#32 reduces_S512x512_S512 (.inl rfl) rfl
  have v22 : FVec Ideal S512x1 .f32 := shapeCast S512x1 v21 shapeCasts_S512_S512x1
  have v23 : FVec Ideal S512x512 .f32 := broadcastTo S512x512 v22 broadcasts_S512x1_S512x512
  have v24 : FVec Ideal S512x512 .f32 := subf v20 v23
  have v25 : FVec Ideal S512x512 .f32 := exp v24
  have v26 : FVec Ideal S512 .f32 := multiReduction .add [1] S512 v25 0x00000000#32 reduces_S512x512_S512 (.inl rfl) rfl
  have v27 : FVec Ideal S512x1 .f32 := shapeCast S512x1 v26 shapeCasts_S512_S512x1
  have v28 : FVec Ideal S512x512 .f32 := broadcastTo S512x512 v27 broadcasts_S512x1_S512x512
  have v29 : FVec Ideal S512x512 .f32 := divf v25 v28
  have cst_19 : FVec Ideal S512x128 .f32 := constant S512x128 .f32 0x00000000#32
  matmul dot_S512x512_S512x128_S512x128_1_0_0_1_n_n none v29 v cst_19

/-- One projection of the reference's body: the activations block times one weight block. -/
def projR (x : Vec Ideal S1x512x1024 .f32) (w : Vec Ideal S1x1024x128 .f32) : FVec Ideal S512x128 .f32 :=
  have v1 : FVec Ideal S512x1024 .f32 := shapeCast S512x1024 x shapeCasts_S1x512x1024_S512x1024
  have v3 : FVec Ideal S1024x128 .f32 := shapeCast S1024x128 w shapeCasts_S1x1024x128_S1024x128
  have cst : FVec Ideal S512x128 .f32 := constant S512x128 .f32 0x00000000#32
  matmul dot_S512x1024_S1024x128_S512x128_1_0_0_1_n_n none v1 v3 cst

/-- The reference's body is the attention of its three projections. -/
theorem ref_pay (x : Vec Ideal S1x512x1024 .f32) (wq wk wv : Vec Ideal S1x1024x128 .f32) :
    Gen.k0_pay2 (F := Ideal) x wq wk wv = attn (projR x wq) (projR x wk) (projR x wv) := rfl

end Ref

section Ker
open Cert.KernelIdeal Cert.KernelIdeal.Facts₀

/-- The fused product of the kernel's body: the activations block times the fused weight block, [512,384]. -/
def projK (x : Vec Ideal S1x512x1024 .bf16) (w : Vec Ideal S1x1024x384 .bf16) : FVec Ideal S512x384 .f32 :=
  have v1 : FVec Ideal S512x1024 .bf16 := shapeCast S512x1024 x shapeCasts_S1x512x1024_S512x1024
  have v3 : FVec Ideal S1024x384 .bf16 := shapeCast S1024x384 w shapeCasts_S1x1024x384_S1024x384
  have cst : FVec Ideal S512x384 .f32 := constant S512x384 .f32 0x00000000#32
  matmul dot_S512x1024_S1024x384_S512x384_1_0_0_1_n_n none v1 v3 cst

/-- The kernel's re-laying of a head's [512,128] output: read as [128,4,128], axes rotated to [4,128,128], read as
    [512,128]. -/
def relay (o : FVec Ideal S512x128 .f32) : FVec Ideal S512x128 .f32 :=
  have v35 : FVec Ideal S128x4x128 .f32 := shapeCast S128x4x128 o shapeCasts_S512x128_S128x4x128
  have v36 : FVec Ideal S4x128x128 .f32 := transpose S4x128x128 [1, 2, 0] v35 transposes_S128x4x128_p1_2_0_S4x128x128
  shapeCast S512x128 v36 shapeCasts_S4x128x128_S512x128

/-- The column sums of a [1024,128] band of the output weight, one row broadcast down the 512 rows. -/
def colScale (w : Vec Ideal S1024x128 .f32) : FVec Ideal S512x128 .f32 :=
  have v33 : FVec Ideal S1024x128 .f32 := shapeCast S1024x128 w shapeCasts_S1024x128_S1024x128
  have v34 : FVec Ideal S128 .f32 := multiReduction .add [0] S128 v33 0x00000000#32 reduces_S1024x128_S128 (.inl rfl) rfl
  have v38 : FVec Ideal S1x128 .f32 := shapeCast S1x128 v34 shapeCasts_S128_S1x128
  broadcastTo S512x128 v38 broadcasts_S1x128_S512x128

/-- The kernel's body: the attention of the three column bands of its fused product, re-laid and scaled. -/
theorem ker_pay (x : Vec Ideal S1x512x1024 .bf16) (w : Vec Ideal S1x1024x384 .bf16) (wo : Vec Ideal S1024x128 .f32) :
    Gen.k0_pay2 (F := Ideal) x w wo
      = mulf (relay (attn (extractStridedSlice S512x128 ![0, 0] (projK x w) slices_S512x384_o0_0_S512x128)
                          (extractStridedSlice S512x128 ![0, 128] (projK x w) slices_S512x384_o0_128_S512x128)
                          (extractStridedSlice S512x128 ![0, 256] (projK x w) slices_S512x384_o0_256_S512x128)))
             (colScale wo) := rfl

end Ker

end Cert.Attn

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.Layout.lean ====
/-
  The two bodies' layout operations and column sums, read at an index.

  * The fused body's re-laying of a head's output o : [512,128] — read as [128,4,128], axes rotated to [4,128,128], read
    as [512,128] — has at (s, a) the entry o(4 a + s / 128, s mod 128): the row-major position 128 s + a of the result is
    position ((s / 128) · 128 + s mod 128) · 128 + a of the rotated array, whose entry (s / 128, s mod 128, a) is entry
    (a, s / 128, s mod 128) of the first reading, at row-major position (4 a + s / 128) · 128 + s mod 128 of o.
  * The host's re-laying between the reference's regions — [16,8,512,128] read as [16,1024,512], last two axes
    exchanged — has at (b, s, d) the entry (b, d / 128, 4 (d mod 128) + s / 128, s mod 128): position
    (1024 b + d) · 512 + s = ((8 b + d / 128) · 512 + 4 (d mod 128) + s / 128) · 128 + s mod 128.
  * Either body's scale of column c is the sum over the 1024 rows k of the weight's entry (k, c).
-/
import proofs.«157704_g2000707044854804_pallasbulk_1172_2_alg».proof.Proof.Attn
import proofs.«157704_g2000707044854804_pallasbulk_1172_2_alg».proof.Proof.LibKeepdims
import Idealize.ShloMosaic.Lib.ValueIdx
import Idealize.ShloMosaic.Lib.ValueLayout
import Idealize.ShloMosaic.Lib.Pipeline.Value

noncomputable section

namespace Cert.Attn

open Idealize.ShloMosaic Idealize.ShloMosaic.ValueIdx

/-- The fused body's re-laying at (s, a): the head's output at (4 a + s / 128, s mod 128). -/
theorem relay_apply (o : FVec Ideal Cert.KernelIdeal.S512x128 .f32) (s : Fin 512) (a : Fin 128) :
    relay o (ix2 s a)
      = o (ix2 (⟨a.val * 4 + s.val / 128, by have := a.isLt; have := s.isLt; omega⟩ : Fin 512)
               (⟨s.val % 128, Nat.mod_lt _ (by decide)⟩ : Fin 128)) := by
  have hs := s.isLt
  have ha := a.isLt
  unfold relay
  refine (shapeCast_apply _ _ (ix2 s a)
    (ix3 (⟨s.val / 128, by omega⟩ : Fin 4) (⟨s.val % 128, Nat.mod_lt _ (by decide)⟩ : Fin 128) a) ?_).trans ?_
  · rw [Shape.rowMajor_val_three, Shape.rowMajor_val_two]
    show (s.val / 128 * 128 + s.val % 128) * 128 + a.val = s.val * 128 + a.val
    omega
  refine (transpose_apply _ _ _ _
    (ix3 a (⟨s.val / 128, by omega⟩ : Fin 4) (⟨s.val % 128, Nat.mod_lt _ (by decide)⟩ : Fin 128))
    (fun c => match c with | ⟨0, _⟩ => rfl | ⟨1, _⟩ => rfl | ⟨2, _⟩ => rfl)).trans ?_
  refine shapeCast_apply _ _ _ _ ?_
  rw [Shape.rowMajor_val_two, Shape.rowMajor_val_three]
  show (a.val * 4 + s.val / 128) * 128 + s.val % 128 = (a.val * 4 + s.val / 128) * 128 + s.val % 128
  rfl

/-- The fused body's column scale at (s, a): the sum of column a of its band of the output weight. -/
theorem colScale_apply (w : Vec Ideal Cert.KernelIdeal.S1024x128 .f32) (s : Fin 512) (a : Fin 128) :
    colScale w (ix2 s a) = ∑ k : Fin 1024, w (ix2 k a) := by
  unfold colScale
  refine (broadcastTo_1b_ab_apply _ _ s a).trans ((shapeCast_a_1a_apply _ _ (0 : Fin 1) a).trans
    ((LibKeepdims.sum_axis0_apply _ _ _ _ _ a).trans ?_))
  rw [shapeCast_self]

/-- The scaling body at (0, s, d): the operand's entry times the sum of column d of the flattened output weight. -/
theorem scale_pay_apply (wf : Vec Ideal Cert.ReferenceIdeal.S1024x1024 .f32) (y : Vec Ideal Cert.ReferenceIdeal.S1x512x1024 .f32)
    (s : Fin 512) (d : Fin 1024) :
    Cert.ReferenceIdeal.Gen.k1_pay1 (F := Ideal) wf y (ix3 (0 : Fin 1) s d)
      = y (ix3 (0 : Fin 1) s d) * ∑ k : Fin 1024, wf (ix2 k d) := by
  unfold Cert.ReferenceIdeal.Gen.k1_pay1
  refine (shapeCast_ab_1ab_apply _ _ (0 : Fin 1) s d).trans ?_
  rw [mulf_apply]
  congr 1
  · exact shapeCast_1ab_ab_apply _ _ s d
  · refine (broadcastTo_1b_ab_apply _ _ s d).trans ((shapeCast_a_1a_apply _ _ (0 : Fin 1) d).trans
      ((LibKeepdims.sum_axis0_apply _ _ _ _ _ d).trans ?_))
    rw [shapeCast_self]

/-- The host's re-laying of the attention output at (b, s, d): its entry (b, d / 128, 4 (d mod 128) + s / 128, s mod 128). -/
theorem hostRelay_apply (A : Vec Ideal Cert.ReferenceIdeal.S16x8x512x128 .f32) (b : Fin 16) (s : Fin 512) (d : Fin 1024) :
    transpose Cert.ReferenceIdeal.S16x512x1024 [0, 2, 1]
        (shapeCast Cert.ReferenceIdeal.S16x1024x512 A Cert.ReferenceIdeal.Facts₀.shapeCasts_S16x8x512x128_S16x1024x512)
        Cert.ReferenceIdeal.Facts₀.transposes_S16x1024x512_S16x512x1024_0_2_1 (ix3 b s d)
      = A (ix4 b (⟨d.val / 128, by have := d.isLt; omega⟩ : Fin 8)
                 (⟨d.val % 128 * 4 + s.val / 128, by have := d.isLt; have := s.isLt; omega⟩ : Fin 512)
                 (⟨s.val % 128, Nat.mod_lt _ (by decide)⟩ : Fin 128)) := by
  have hs := s.isLt
  have hd := d.isLt
  have hb := b.isLt
  refine (transpose_ix3_021_apply _ _ b s d).trans ?_
  refine shapeCast_apply _ _ _ _ ?_
  rw [Shape.rowMajor_val_four, Shape.rowMajor_val_three]
  show ((b.val * 8 + d.val / 128) * 512 + (d.val % 128 * 4 + s.val / 128)) * 128 + s.val % 128 = (b.val * 1024 + d.val) * 512 + s.val
  omega

end Cert.Attn

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Proj.lean ====
/-
  A column band of the fused product is the product with the band.

  The fused body multiplies the activations block x : [512,1024] by the fused weight block w : [1024,384] and cuts the
  columns off … off + 127 of the result; the reference multiplies x by the band of w holding those columns.  At an entry
  (s, h) both are the sum over k of x(s,k) · w(k, off + h): the same sum, term by term.
-/
import proofs.«157704_g2000707044854804_pallasbulk_1172_2_alg».proof.Proof.Attn
import proofs.«157704_g2000707044854804_pallasbulk_1172_2_alg».proof.Proof.LibMatmulIdx
import Idealize.ShloMosaic.Lib.ValueIdx
import Idealize.ShloMosaic.Lib.ValueLayout
import Idealize.ShloMosaic.Lib.Pipeline.Value

noncomputable section

namespace Cert.Attn

open Idealize.ShloMosaic Idealize.ShloMosaic.ValueIdx

/-- The fused product at an entry: the sum over the contracted axis. -/
theorem projK_apply (x : Vec Ideal Cert.KernelIdeal.S1x512x1024 .bf16) (w : Vec Ideal Cert.KernelIdeal.S1x1024x384 .bf16)
    (s : Fin 512) (c : Fin 384) :
    projK x w (ix2 s c) = ∑ k : Fin 1024, x (ix3 (0 : Fin 1) s k) * w (ix3 (0 : Fin 1) k c) := by
  unfold projK
  refine (LibMatmulIdx.matmul2_apply Cert.KernelIdeal.dot_S512x1024_S1024x384_S512x384_1_0_0_1_n_n rfl rfl
    (fun _ _ => rfl) (fun j k => DotDims.lhsIdx_val_of_single _ rfl j k)
    (fun j k => DotDims.rhsIdx_val_of_single _ rfl j k) (fun _ _ => rfl) none _ _ (ix2 s c)).trans ?_
  refine Finset.sum_congr rfl fun k _ => ?_
  exact congrArg₂ (· * ·) (shapeCast_1ab_ab_apply _ _ s k) (shapeCast_1ab_ab_apply _ _ k c)

/-- One of the reference's products at an entry: the sum over the contracted axis. -/
theorem projR_apply (x : Vec Ideal Cert.ReferenceIdeal.S1x512x1024 .f32) (w : Vec Ideal Cert.ReferenceIdeal.S1x1024x128 .f32)
    (s : Fin 512) (h : Fin 128) :
    projR x w (ix2 s h) = ∑ k : Fin 1024, x (ix3 (0 : Fin 1) s k) * w (ix3 (0 : Fin 1) k h) := by
  unfold projR
  refine (LibMatmulIdx.matmul2_apply Cert.ReferenceIdeal.dot_S512x1024_S1024x128_S512x128_1_0_0_1_n_n rfl rfl
    (fun _ _ => rfl) (fun j k => DotDims.lhsIdx_val_of_single _ rfl j k)
    (fun j k => DotDims.rhsIdx_val_of_single _ rfl j k) (fun _ _ => rfl) none _ _ (ix2 s h)).trans ?_
  refine Finset.sum_congr rfl fun k _ => ?_
  exact congrArg₂ (· * ·) (shapeCast_1ab_ab_apply _ _ s k) (shapeCast_1ab_ab_apply _ _ k h)

/-- The band of the fused product starting at column `off` is the product with a weight block holding that band. -/
theorem proj_band (off : ℕ) (hs : Cert.KernelIdeal.S512x384.Slices ![0, off] Cert.KernelIdeal.S512x128)
    (xK : Vec Ideal Cert.KernelIdeal.S1x512x1024 .bf16) (wK : Vec Ideal Cert.KernelIdeal.S1x1024x384 .bf16)
    (xR : Vec Ideal Cert.ReferenceIdeal.S1x512x1024 .f32) (wR : Vec Ideal Cert.ReferenceIdeal.S1x1024x128 .f32)
    (hx : ∀ (s : Fin 512) (k : Fin 1024), xK (ix3 (0 : Fin 1) s k) = xR (ix3 (0 : Fin 1) s k))
    (hw : ∀ (k : Fin 1024) (h : Fin 128) (c : Fin 384), c.val = off + h.val → wK (ix3 (0 : Fin 1) k c) = wR (ix3 (0 : Fin 1) k h)) :
    extractStridedSlice Cert.KernelIdeal.S512x128 ![0, off] (projK xK wK) hs = projR xR wR := by
  funext j
  obtain ⟨s, h, rfl⟩ : ∃ (s : Fin 512) (h : Fin 128), j = ix2 s h := ⟨j 0, j 1, eq_ix2 j⟩
  refine (slice2_axis1_eq off _ hs s h).trans ?_
  rw [projK_apply, projR_apply]
  refine Finset.sum_congr rfl fun k _ => ?_
  rw [hx s k, hw k h _ rfl]

end Cert.Attn

end
-- ==== Proof.Bridge.lean ====
/-
  The fused kernel's output array and the reference's are one function of the argument arrays.

  Write X for the activations [16,512,1024], W for the fused projection weight [8,1024,384] and Wo for the output weight
  [8,128,1024], read as Wf : [1024,1024].  For batch b, row s and column d, with head n = d / 128 and lane a = d mod 128:
  * the fused kernel's entry is the re-laid attention of head n at (s, a), i.e. the attention's entry
    (4 a + s / 128, s mod 128), times the sum of column 128 n + a = d of Wf;
  * the reference's entry is the host-re-laid attention output at (b, s, d), i.e. entry (b, n, 4 a + s / 128, s mod 128)
    of the attention region's output, times the sum of column d of Wf.
  The two attentions are the same function of the same projections: the fused product's column bands are the
  reference's three products.  No algebraic law is used beyond reading both sides at the index; nothing needs the
  inputs to be finite.
-/
import proofs.«157704_g2000707044854804_pallasbulk_1172_2_alg».proof.Proof.Layout
import proofs.«157704_g2000707044854804_pallasbulk_1172_2_alg».proof.Proof.Proj
import proofs.«157704_g2000707044854804_pallasbulk_1172_2_alg».proof.Proof.KerSpec
import proofs.«157704_g2000707044854804_pallasbulk_1172_2_alg».proof.Proof.RefSpec

noncomputable section

namespace Cert.Attn

open Idealize.ShloMosaic Idealize.ShloMosaic.ValueIdx

/-- A weight band cut on the host, read at head n, row k, column h: the fused weight at column off + h. -/
theorem hostBand_apply (off : ℕ) (W : Vec Ideal Cert.ReferenceIdeal.S8x1024x384 .f32)
    (hsl : Cert.ReferenceIdeal.S8x1024x384.Slices ![0, 0, off] Cert.ReferenceIdeal.S8x1024x128)
    (n : Fin 8) (k : Fin 1024) (h : Fin 128) (c : Fin 384) (hc : c.val = off + h.val) :
    Cert.ReferenceIdeal.RefValue.headOf (extractStridedSlice Cert.ReferenceIdeal.S8x1024x128 ![0, 0, off] W hsl) n (ix3 (0 : Fin 1) k h)
      = W (ix3 n k c) := by
  show extractStridedSlice Cert.ReferenceIdeal.S8x1024x128 ![0, 0, off] W hsl (ix3 n k h) = W (ix3 n k c)
  refine extractStridedSlice_apply _ _ _ _ _ fun a => ?_
  match a with
  | ⟨0, _⟩ => exact (Nat.zero_add _).symm
  | ⟨1, _⟩ => exact (Nat.zero_add _).symm
  | ⟨2, _⟩ => exact hc

/-- THE BRIDGE. -/
theorem bridge (X : Vec Ideal Cert.ReferenceIdeal.S16x512x1024 .f32) (W : Vec Ideal Cert.ReferenceIdeal.S8x1024x384 .f32)
    (Wo : Vec Ideal Cert.ReferenceIdeal.S8x128x1024 .f32) :
    Cert.KernelIdeal.KerValue.fusedArr
        (truncf .bf16 (X : FVec Ideal Cert.KernelIdeal.S16x512x1024 .f32) Cert.KernelIdeal.Facts₀.bitsLt_bf16_f32 : FVec Ideal Cert.KernelIdeal.S16x512x1024 .bf16)
        (truncf .bf16 (W : FVec Ideal Cert.KernelIdeal.S8x1024x384 .f32) Cert.KernelIdeal.Facts₀.bitsLt_bf16_f32 : FVec Ideal Cert.KernelIdeal.S8x1024x384 .bf16)
        (shapeCast Cert.KernelIdeal.S1024x1024 Wo Cert.KernelIdeal.Facts₀.shapeCasts_S8x128x1024_S1024x1024)
      = Cert.ReferenceIdeal.RefValue.scaledArr
          (transpose Cert.ReferenceIdeal.S16x512x1024 [0, 2, 1]
            (shapeCast Cert.ReferenceIdeal.S16x1024x512
              (Cert.ReferenceIdeal.RefValue.attnArr X
                (extractStridedSlice Cert.ReferenceIdeal.S8x1024x128 ![0, 0, 0] W Cert.ReferenceIdeal.Facts₀.slices_S8x1024x384_S8x1024x128_0_0_0)
                (extractStridedSlice Cert.ReferenceIdeal.S8x1024x128 ![0, 0, 128] W Cert.ReferenceIdeal.Facts₀.slices_S8x1024x384_S8x1024x128_0_0_128)
                (extractStridedSlice Cert.ReferenceIdeal.S8x1024x128 ![0, 0, 256] W Cert.ReferenceIdeal.Facts₀.slices_S8x1024x384_S8x1024x128_0_0_256))
              Cert.ReferenceIdeal.Facts₀.shapeCasts_S16x8x512x128_S16x1024x512)
            Cert.ReferenceIdeal.Facts₀.transposes_S16x1024x512_S16x512x1024_0_2_1)
          (shapeCast Cert.ReferenceIdeal.S1024x1024 Wo Cert.ReferenceIdeal.Facts₀.shapeCasts_S8x128x1024_S1024x1024) := by
  funext i
  obtain ⟨b, s, d, rfl⟩ : ∃ (b : Fin 16) (s : Fin 512) (d : Fin 1024), i = ix3 b s d := ⟨i 0, i 1, i 2, eq_ix3 i⟩
  have hd := d.isLt
  have hs := s.isLt
  unfold Cert.KernelIdeal.KerValue.fusedArr Cert.ReferenceIdeal.RefValue.scaledArr
  show Cert.KernelIdeal.Gen.k0_pay2 (F := Ideal) _ _ _ (ix2 s (⟨d.val % 128, Nat.mod_lt _ (by decide)⟩ : Fin 128))
      = Cert.ReferenceIdeal.Gen.k1_pay1 (F := Ideal) _ _ (ix3 (0 : Fin 1) s d)
  rw [ker_pay, mulf_apply, relay_apply, colScale_apply, scale_pay_apply]
  refine congrArg₂ (· * ·) ?_ ?_
  · -- the attentions
    refine Eq.trans ?_ (hostRelay_apply _ b s d).symm
    show _ = Cert.ReferenceIdeal.Gen.k0_pay2 (F := Ideal) _ _ _ _ (ix2 _ _)
    rw [ref_pay]
    refine congrFun ?_ _
    refine congr (congr (congrArg attn ?_) ?_) ?_
    · exact proj_band 0 _ _ _ _ _ (fun _ _ => rfl) (fun k h c hc => (hostBand_apply 0 W _ _ k h c hc).symm)
    · exact proj_band 128 _ _ _ _ _ (fun _ _ => rfl) (fun k h c hc => (hostBand_apply 128 W _ _ k h c hc).symm)
    · exact proj_band 256 _ _ _ _ _ (fun _ _ => rfl) (fun k h c hc => (hostBand_apply 256 W _ _ k h c hc).symm)
  · -- the column sums
    refine Finset.sum_congr rfl fun k _ => ?_
    show shapeCast Cert.KernelIdeal.S1024x1024 Wo _ (ix2 k _) = shapeCast Cert.ReferenceIdeal.S1024x1024 Wo _ (ix2 k d)
    refine congrArg _ (congrArg (ix2 k) (Fin.ext ?_))
    show d.val / 128 * 128 + d.val % 128 = d.val
    omega

end Cert.Attn

end
-- ==== Proof.lean ====
/-
  The certificate of a fused multi-head causal attention kernel against its two-kernel reference, at exact arithmetic.

  For activations X : [16,512,1024], a fused projection weight W : [8,1024,384] and an output weight Wo : [8,128,1024], both
  programs compute, for batch b, row s and column d = 128 n + a,
      O_{b,n}(4 a + s / 128, s mod 128) · Σ_k Wf(k, d),
  where Wf is Wo read as [1024,1024] and O_{b,n} = softmax_row(Q Kᵀ · c + mask) V is the causal attention of head n on batch
  member b, with Q, K, V the products of X_b with the three 128-column bands of W_n, c the f32 literal nearest 1/√128 and
  the mask adding 0 on and below the diagonal and the f32 literal -1e10 above it.

  The fused kernel forms one product X_b W_n and cuts its bands, computes the attention, re-lays it inside the body and
  scales by the column sums of its band of Wf, one (batch, head) tile per grid point.  The reference forms the three
  products from host-cut bands in a first region, re-lays the heads' outputs on the host (a reshape and an exchange of
  the last two axes), and scales by the column sums of Wf in a second region.  Index by index the two results are the same
  expression of the same operations (Proof/Bridge.lean); the changes of float format in the fused kernel are the identity
  at exact arithmetic.  No algebraic law on the extended reals is used and the finiteness of the inputs is never opened.

  The three frames are the generated ones (the reference's as its run with the result dropped); the idealization rewrote
  nothing, so the preservation conjunct is trivial.
-/
import proofs.«157704_g2000707044854804_pallasbulk_1172_2_alg».proof.Defs
import proofs.«157704_g2000707044854804_pallasbulk_1172_2_alg».proof.Proof.Gen.Kernel
import proofs.«157704_g2000707044854804_pallasbulk_1172_2_alg».proof.Proof.Gen.Kernel.Frame
import proofs.«157704_g2000707044854804_pallasbulk_1172_2_alg».proof.Proof.Gen.KernelIdeal
import proofs.«157704_g2000707044854804_pallasbulk_1172_2_alg».proof.Proof.Gen.KernelIdeal.Frame
import proofs.«157704_g2000707044854804_pallasbulk_1172_2_alg».proof.Proof.Gen.KernelIdeal.Value
import proofs.«157704_g2000707044854804_pallasbulk_1172_2_alg».proof.Proof.Gen.ReferenceIdeal
import proofs.«157704_g2000707044854804_pallasbulk_1172_2_alg».proof.Proof.Gen.ReferenceIdeal.Frame
import proofs.«157704_g2000707044854804_pallasbulk_1172_2_alg».proof.Proof.Gen.Pre_finite_inputs
import proofs.«157704_g2000707044854804_pallasbulk_1172_2_alg».proof.Proof.KerRun
import proofs.«157704_g2000707044854804_pallasbulk_1172_2_alg».proof.Proof.RefFinal
import proofs.«157704_g2000707044854804_pallasbulk_1172_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The ideal pass rewrote no operation. -/
theorem preserves : Cert.preserves_Kernel_KernelIdeal := trivial

/-- Both idealized programs run, the kernel's result at its whole-array function of the arguments, the reference's at its
    own; from arguments that agree the two functions give one array (`Cert.Attn.bridge`). -/
theorem algebraic : Cert.algebraic_KernelIdeal_ReferenceIdeal := by
  intro m ρ m' ρ' _ hagree
  refine ⟨fun c => Cert.KernelIdeal.KerValue.kerResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  exact (Cert.Attn.bridge _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
